-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S800000 32) (main_arg2 : IVec S800000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S5000x64 : Shape := ⟨2, ![5000, 64]⟩
abbrev S1x64 : Shape := ⟨2, ![1, 64]⟩
abbrev S4000x64 : Shape := ⟨2, ![4000, 64]⟩
abbrev S4000x1 : Shape := ⟨2, ![4000, 1]⟩
abbrev S4000 : Shape := ⟨1, ![4000]⟩

abbrev nBuf : Space → Nat
  | .hbm => 81
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S_, .f32⟩
  | .hbm, ⟨49, _⟩ => ⟨S800000, .f32⟩
  | .hbm, ⟨50, _⟩ => ⟨S_, .f32⟩
  | .hbm, ⟨51, _⟩ => ⟨S50000, .f32⟩
  | .hbm, ⟨52, _⟩ => ⟨S800000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x64, .f32⟩
  | .hbm, ⟨79, _⟩ => ⟨S800000x1, .f32⟩
  | .hbm, ⟨80, _⟩ => ⟨S800000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x1, .f32⟩
  | .local _ .vmem, ⟨23, _⟩ => ⟨S4000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_c_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_c_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  reduces_S4000x64_S4000 : S4000x64.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S800000x1_S800000 : S800000x1.ShapeCasts S800000
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S800000x64.size a
  hwx2_1 : ∀ i : grid2.Coords, EltTy.bits .f32 = 32 ∨ (Rect.block (s := S800000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S800000x1.size a
  hwx2_2 : ∀ i : grid2.Coords, EltTy.bits .f32 = 32 ∨ (Rect.block (s := S800000x1) S4000x1.size (cc2_transform_2 i) (hinb2_2 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S4000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x64, .f32⟩
  | .hbm, ⟨95, _⟩ => ⟨S800000x64, .f32⟩
  | .hbm, ⟨96, _⟩ => ⟨S_, .f32⟩
  | .hbm, ⟨97, _⟩ => ⟨S800000, .f32⟩
  | .hbm, ⟨98, _⟩ => ⟨S800000, .f32⟩
  | .hbm, ⟨99, _⟩ => ⟨S800000, .f32⟩
  | .hbm, ⟨100, _⟩ => ⟨S_, .f32⟩
  | .hbm, ⟨101, _⟩ => ⟨S800000, .f32⟩
  | .hbm, ⟨102, _⟩ => ⟨S800000, .f32⟩
  | .hbm, ⟨103, _⟩ => ⟨S_, .f32⟩
  | .hbm, ⟨104, _⟩ => ⟨S800000, .f32⟩
  | .hbm, ⟨105, _⟩ => ⟨S800000, .f32⟩
  | .hbm, ⟨106, _⟩ => ⟨S800000, .f32⟩
  | .hbm, ⟨107, _⟩ => ⟨S800000, .f32⟩
  | .hbm, ⟨108, _⟩ => ⟨S_, .f32⟩
  | .hbm, ⟨109, _⟩ => ⟨S800000, .f32⟩
  | .hbm, ⟨110, _⟩ => ⟨S800000, .f32⟩
  | .hbm, ⟨111, _⟩ => ⟨S_, .f32⟩
  | .hbm, ⟨112, _⟩ => ⟨S800000, .f32⟩
  | .hbm, ⟨113, _⟩ => ⟨S800000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_17 : Ref sig .tc := ⟨.hbm, 108, rfl⟩
abbrev main_v76 : Ref sig .tc := ⟨.hbm, 109, rfl⟩
abbrev main_v77 : Ref sig .tc := ⟨.hbm, 110, rfl⟩
abbrev main_cst_18 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S800000x64_S800000_d1 : S800000x64.ReducesTo [1] S800000
  h_S_ : 0 < S_.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run with its result named.

  @main is seven segments: a stretch of host operations, the first combine kernel, a second stretch, the second
  combine kernel, a third stretch, the edge-score kernel, and the closing reshape.  The buffer contents at the
  segment boundaries are a fold from the launch memory (W0 … W7); the run below is the launch over those
  segments with the last thread state read against the final memory, and it keeps, beside the nine argument
  arrays, the result buffer at the last boundary's contents `W7`.  Everything the value proof says about the
  kernel is then a statement about the fold `W7 … main_v55`.
-/
import proofs.«172390_j13804024889624_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v55) = W7 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v55 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Run

end
-- ==== Proof.HostChains.lean ====
/-
  The host operations between the kernels, read back.

  Before each combine kernel @main aggregates the neighbours' features: it gathers the source node's row for every
  edge (a negative index counted from the end, as jnp does), adds the rows up per destination node, counts the
  edges per destination node, and divides the sums by the counts (at least one).  `meanAgg X src dst` is that
  composite of host operations.  Before the edge kernel it gathers the rows of the two end points of every edge
  (`gatherRows`), and after it reshapes the 800000×1 column of scores to a vector (`flatten`).
  Each stretch of host operations is a fold over the buffers; read at a buffer, the fold is the stretch's
  composite of the buffers it started from, whatever those are (`W`), and a buffer no operation of the stretch
  writes keeps its contents.
-/
import proofs.«172390_j13804024889624_2_alg».proof.Proof.Gen.KernelIdeal.Launch
import Idealize.ShloMosaic.PureOps.Ideal
import Idealize.ShloMosaic.Lib.StableHlo.Run

noncomputable section

namespace Cert.KernelIdeal.Chains

open Cert.KernelIdeal Cert.KernelIdeal.Gen Idealize.ShloMosaic Idealize.ShloMosaic.TcCoe Idealize.SL.Sem Idealize.ShloMosaic.StableHlo

/-- An edge's node index as jnp reads it: a negative index counts from the end. -/
def wrapIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The node array's rows at the edges' indices. -/
def gatherRows (X : FVec Ideal S50000x64 .f32) (s : IVec S800000 32) : FVec Ideal S800000x64 .f32 :=
  Host.gather gather_S50000x64_S800000x1_S800000x64_1_0_n_n_0_1_164 X (wrapIdx s)

/-- The mean of the source rows over the edges arriving at each node (the sum over a count of at least one). -/
def meanAgg (X : FVec Ideal S50000x64 .f32) (src dst : IVec S800000 32) : FVec Ideal S50000x64 .f32 :=
  Host.divf (F := Ideal)
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 dst) (gatherRows X src))
    (broadcastInDim S50000x64 ![0, 1] bcast_S50000x1_S50000x64_0_1 (broadcastInDim S50000x1 ![0] bcast_S50000_S50000x1_0
      (maximumf (F := Ideal)
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x3F800000#32)))))

/-- The column of scores as a vector. -/
def flatten (Y : FVec Ideal S800000x1 .f32) : FVec Ideal S800000 .f32 :=
  shapeCast S800000 Y shapeCasts_S800000x1_S800000

variable (W : Valuation τ sig (Elt Ideal))

/-! ## The first stretch (before the first combine kernel) -/

set_option maxHeartbeats 4000000 in
theorem after0_v18 : StableHlo.after (hostOps0 (F := Ideal)) W (Proc.devRef .tc main_v18)
    = meanAgg (W (Proc.devRef .tc main_arg0)) (W (Proc.devRef .tc main_arg1)) (W (Proc.devRef .tc main_arg2)) := by
  after_results_simp <;> rfl
set_option maxHeartbeats 4000000 in
theorem after0_arg0 : StableHlo.after (hostOps0 (F := Ideal)) W (Proc.devRef .tc main_arg0) = W (Proc.devRef .tc main_arg0) := by
  after_results_simp <;> rfl
set_option maxHeartbeats 4000000 in
theorem after0_arg1 : StableHlo.after (hostOps0 (F := Ideal)) W (Proc.devRef .tc main_arg1) = W (Proc.devRef .tc main_arg1) := by
  after_results_simp <;> rfl
set_option maxHeartbeats 4000000 in
theorem after0_arg2 : StableHlo.after (hostOps0 (F := Ideal)) W (Proc.devRef .tc main_arg2) = W (Proc.devRef .tc main_arg2) := by
  after_results_simp <;> rfl
set_option maxHeartbeats 4000000 in
theorem after0_arg3 : StableHlo.after (hostOps0 (F := Ideal)) W (Proc.devRef .tc main_arg3) = W (Proc.devRef .tc main_arg3) := by
  after_results_simp <;> rfl
set_option maxHeartbeats 4000000 in
theorem after0_arg4 : StableHlo.after (hostOps0 (F := Ideal)) W (Proc.devRef .tc main_arg4) = W (Proc.devRef .tc main_arg4) := by
  after_results_simp <;> rfl
set_option maxHeartbeats 4000000 in
theorem after0_arg5 : StableHlo.after (hostOps0 (F := Ideal)) W (Proc.devRef .tc main_arg5) = W (Proc.devRef .tc main_arg5) := by
  after_results_simp <;> rfl
set_option maxHeartbeats 4000000 in
theorem after0_arg6 : StableHlo.after (hostOps0 (F := Ideal)) W (Proc.devRef .tc main_arg6) = W (Proc.devRef .tc main_arg6) := by
  after_results_simp <;> rfl
set_option maxHeartbeats 4000000 in
theorem after0_arg7 : StableHlo.after (hostOps0 (F := Ideal)) W (Proc.devRef .tc main_arg7) = W (Proc.devRef .tc main_arg7) := by
  after_results_simp <;> rfl
set_option maxHeartbeats 4000000 in
theorem after0_arg8 : StableHlo.after (hostOps0 (F := Ideal)) W (Proc.devRef .tc main_arg8) = W (Proc.devRef .tc main_arg8) := by
  after_results_simp <;> rfl

/-! ## The second stretch (between the combine kernels) -/

set_option maxHeartbeats 4000000 in
theorem after1_v38 : StableHlo.after (hostOps1 (F := Ideal)) W (Proc.devRef .tc main_v38)
    = meanAgg (W (Proc.devRef .tc main_v19)) (W (Proc.devRef .tc main_arg1)) (W (Proc.devRef .tc main_arg2)) := by
  after_results_simp <;> rfl
set_option maxHeartbeats 4000000 in
theorem after1_v19 : StableHlo.after (hostOps1 (F := Ideal)) W (Proc.devRef .tc main_v19) = W (Proc.devRef .tc main_v19) := by
  after_results_simp <;> rfl
set_option maxHeartbeats 4000000 in
theorem after1_arg1 : StableHlo.after (hostOps1 (F := Ideal)) W (Proc.devRef .tc main_arg1) = W (Proc.devRef .tc main_arg1) := by
  after_results_simp <;> rfl
set_option maxHeartbeats 4000000 in
theorem after1_arg2 : StableHlo.after (hostOps1 (F := Ideal)) W (Proc.devRef .tc main_arg2) = W (Proc.devRef .tc main_arg2) := by
  after_results_simp <;> rfl
set_option maxHeartbeats 4000000 in
theorem after1_arg6 : StableHlo.after (hostOps1 (F := Ideal)) W (Proc.devRef .tc main_arg6) = W (Proc.devRef .tc main_arg6) := by
  after_results_simp <;> rfl
set_option maxHeartbeats 4000000 in
theorem after1_arg7 : StableHlo.after (hostOps1 (F := Ideal)) W (Proc.devRef .tc main_arg7) = W (Proc.devRef .tc main_arg7) := by
  after_results_simp <;> rfl
set_option maxHeartbeats 4000000 in
theorem after1_arg8 : StableHlo.after (hostOps1 (F := Ideal)) W (Proc.devRef .tc main_arg8) = W (Proc.devRef .tc main_arg8) := by
  after_results_simp <;> rfl

/-! ## The third stretch (before the edge kernel) -/

set_option maxHeartbeats 4000000 in
theorem after2_v46 : StableHlo.after (hostOps2 (F := Ideal)) W (Proc.devRef .tc main_v46)
    = gatherRows (W (Proc.devRef .tc main_v39)) (W (Proc.devRef .tc main_arg1)) := by
  after_results_simp <;> rfl
set_option maxHeartbeats 4000000 in
theorem after2_v53 : StableHlo.after (hostOps2 (F := Ideal)) W (Proc.devRef .tc main_v53)
    = gatherRows (W (Proc.devRef .tc main_v39)) (W (Proc.devRef .tc main_arg2)) := by
  after_results_simp <;> rfl

/-! ## The closing reshape -/

set_option maxHeartbeats 4000000 in
theorem after3_v55 : StableHlo.after (hostOps3 (F := Ideal)) W (Proc.devRef .tc main_v55)
    = flatten (W (Proc.devRef .tc main_v54)) := by
  after_results_simp <;> rfl

end Cert.KernelIdeal.Chains

end
-- ==== Proof.BlockLayer.lean ====
/-
  One block of the combine kernel at an index.

  The body loads a 5000×64 block of node features `x`, the matching block of aggregated neighbour features `h`,
  the two 64×64 weight matrices and the bias row, and stores
      max (x · Wself + h · Wneigh + b, 0)
  through the whole block.  Read at the extended reals the roundings to bf16 in front of the two matrix
  products are the identity and a matrix product into a zero accumulator is the plain sum over the contracted
  coordinate, so the stored value at row `p`, column `q` is
      max ((∑ k, x[p,k] · Wself[k,q]) + (∑ k, h[p,k] · Wneigh[k,q]) + b[q], 0).
  Both launches of the combine kernel (layer one and layer two) store this same function of their blocks.
-/
import proofs.«172390_j13804024889624_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The value one block of the combine kernel holds at row `p`, column `q`, from the blocks it loaded. -/
def combineAt (x h : FVec Ideal S5000x64 .f32) (ws wn : FVec Ideal S64x64 .f32) (b : FVec Ideal S64 .f32)
    (p : Fin 5000) (q : Fin 64) : EReal :=
  max ((∑ k : Fin 64, x (ix2 p k) * ws (ix2 k q)) + (∑ k : Fin 64, h (ix2 p k) * wn (ix2 k q)) + b (ix1 q))
    (Ideal.ofBits .f32 0x00000000#32)

/-- The left operand's index of a block product: the output's row, -/
theorem lhs_row (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- and the contracted coordinate as its column. -/
theorem lhs_col (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- The right operand's index: the contracted coordinate as its row, -/
theorem rhs_row (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- and the output's column. -/
theorem rhs_col (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block product into the zero accumulator, at row `p` and column `q`: the sum over the contracted coordinate
    of the left block's row `p` against the right block's column `q`. -/
theorem matmul_zero_at (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q)
      ((ValueIdx.contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q)
      ((ValueIdx.contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The bias row laid over the block: at row `p`, column `q`, the bias at `q`. -/
theorem bias_at (b : FVec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans
    (shapeCast_a_1a_apply b shapeCasts_S64_S1x64 (0 : Fin 1) q)

/-- What the first launch's body stores, at row `p`, column `q`. -/
theorem pay0_at (x h : Vec Ideal S5000x64 .f32) (ws wn : Vec Ideal S64x64 .f32) (b : Vec Ideal S64 .f32)
    (p : Fin 5000) (q : Fin 64) :
    k0_pay1 (F := Ideal) x h ws wn b (ix2 p q) = combineAt x h ws wn b p q := by
  unfold k0_pay1 combineAt
  show max (matmul (F := Ideal) dot_S5000x64_S64x64_S5000x64_1_0_0_1_n_n none (truncf .bf16 (x : FVec Ideal S5000x64 .f32) bitsLt_bf16_f32) (truncf .bf16 (ws : FVec Ideal S64x64 .f32) bitsLt_bf16_f32) (constant S5000x64 .f32 0x00000000#32) (ix2 p q)
        + matmul (F := Ideal) dot_S5000x64_S64x64_S5000x64_1_0_0_1_n_n none (truncf .bf16 (shapeCast S5000x64 (h : FVec Ideal S5000x64 .f32) shapeCasts_S5000x64_S5000x64) bitsLt_bf16_f32) (truncf .bf16 (wn : FVec Ideal S64x64 .f32) bitsLt_bf16_f32) (constant S5000x64 .f32 0x00000000#32) (ix2 p q)
        + broadcastTo S5000x64 (shapeCast S1x64 (b : FVec Ideal S64 .f32) shapeCasts_S64_S1x64) broadcasts_S1x64_S5000x64 (ix2 p q))
      (Ideal.ofBits .f32 0x00000000#32) = _
  rw [matmul_zero_at, matmul_zero_at, bias_at, shapeCast_self]
  rfl

/-- What the second launch's body stores, at row `p`, column `q`: the same function of its blocks. -/
theorem pay1_at (x h : Vec Ideal S5000x64 .f32) (ws wn : Vec Ideal S64x64 .f32) (b : Vec Ideal S64 .f32)
    (p : Fin 5000) (q : Fin 64) :
    k1_pay1 (F := Ideal) x h ws wn b (ix2 p q) = combineAt x h ws wn b p q := by
  unfold k1_pay1 combineAt
  show max (matmul (F := Ideal) dot_S5000x64_S64x64_S5000x64_1_0_0_1_n_n none (truncf .bf16 (shapeCast S5000x64 (x : FVec Ideal S5000x64 .f32) shapeCasts_S5000x64_S5000x64) bitsLt_bf16_f32) (truncf .bf16 (ws : FVec Ideal S64x64 .f32) bitsLt_bf16_f32) (constant S5000x64 .f32 0x00000000#32) (ix2 p q)
        + matmul (F := Ideal) dot_S5000x64_S64x64_S5000x64_1_0_0_1_n_n none (truncf .bf16 (shapeCast S5000x64 (h : FVec Ideal S5000x64 .f32) shapeCasts_S5000x64_S5000x64) bitsLt_bf16_f32) (truncf .bf16 (wn : FVec Ideal S64x64 .f32) bitsLt_bf16_f32) (constant S5000x64 .f32 0x00000000#32) (ix2 p q)
        + broadcastTo S5000x64 (shapeCast S1x64 (b : FVec Ideal S64 .f32) shapeCasts_S64_S1x64) broadcasts_S1x64_S5000x64 (ix2 p q))
      (Ideal.ofBits .f32 0x00000000#32) = _
  rw [matmul_zero_at, matmul_zero_at, bias_at, shapeCast_self, shapeCast_self]
  rfl

end Cert.KernelIdeal.Block

end
-- ==== Proof.BlockEdge.lean ====
/-
  One block of the edge-score kernel at an index.

  The body loads a 4000×64 block of source-node features `s` and the matching block of destination-node features
  `d`, multiplies them lane by lane, sums each row over its 64 lanes, keeps the sums as a 4000×1 column and applies
  the logistic function twice.  At row `p` the stored value is
      logistic (logistic (∑ k, s[p,k] · d[p,k])).
-/
import proofs.«172390_j13804024889624_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The value one block of the edge-score kernel holds at row `p`, from the blocks it loaded. -/
def edgeAt (s d : FVec Ideal S4000x64 .f32) (p : Fin 4000) : EReal :=
  Ideal.logistic (Ideal.logistic (∑ k : Fin 64, s (ix2 p k) * d (ix2 p k)))

/-- A row sum over the 64 lanes, started from zero, at row `p`. -/
theorem rowsum_at (v : FVec Ideal S4000x64 .f32) (hφ : FKind.Formats .f32)
    (hacc : (0x00000000#32 : BitVec FTy.f32.bits) = FKind.add.neutral .f32 hφ) (p : Fin 4000) :
    multiReduction .add [1] S4000 v 0x00000000#32 reduces_S4000x64_S4000 hφ hacc (ix1 p) = ∑ k : Fin 64, v (ix2 p k) := by
  refine (Ideal.multiReduction_add_single v _ reduces_S4000x64_S4000 hφ hacc (ix1 p)).trans ?_
  show ∑ k : Fin 64, v (reduces_S4000x64_S4000.lift (ix1 p) k) = _
  refine Finset.sum_congr rfl fun k _ => congrArg v (funext fun a => Fin.ext (by
    match a with
    | ⟨0, _⟩ => rfl
    | ⟨1, _⟩ => rfl))

/-- A vector of 4000 entries kept as a 4000×1 column reads, at row `p`, the vector at `p`. -/
theorem column_at (v : FVec Ideal S4000 .f32) (p : Fin 4000) (u : Fin 1) :
    shapeCast S4000x1 v shapeCasts_S4000_S4000x1 (ix2 p u) = v (ix1 p) :=
  shapeCast_apply v shapeCasts_S4000_S4000x1 _ _ (by
    have hu : u.val = 0 := by omega
    rw [Shape.rowMajor_val_two, Shape.rowMajor_val_one]
    show p.val = p.val * 1 + u.val
    rw [hu, Nat.mul_one, Nat.add_zero])

/-- What the edge-score body stores, at row `p` of its one column. -/
theorem pay2_at (s d : Vec Ideal S4000x64 .f32) (p : Fin 4000) (u : Fin 1) :
    k2_pay1 (F := Ideal) s d (ix2 p u) = edgeAt s d p := by
  unfold k2_pay1 edgeAt
  show Ideal.logistic (Ideal.logistic (shapeCast S4000x1 (multiReduction (F := Ideal) .add [1] S4000
      (mulf (F := Ideal) (shapeCast S4000x64 (s : FVec Ideal S4000x64 .f32) shapeCasts_S4000x64_S4000x64) (shapeCast S4000x64 (d : FVec Ideal S4000x64 .f32) shapeCasts_S4000x64_S4000x64))
      0x00000000#32 reduces_S4000x64_S4000 (.inl rfl) rfl) shapeCasts_S4000_S4000x1 (ix2 p u))) = _
  rw [column_at]
  refine congrArg Ideal.logistic (congrArg Ideal.logistic ?_)
  refine (rowsum_at _ (.inl rfl) rfl p).trans ?_
  rw [shapeCast_self, shapeCast_self]
  rfl

end Cert.KernelIdeal.Block

end
-- ==== Proof.Spec.lean ====
/-
  The layer and the edge score as functions of whole arrays, index by index, over the extended reals.

  `combineArr X H Ws Wn B` is one GraphSAGE layer after aggregation: at node `r`, feature `q`,
      max ((∑ k, X[r,k] · Ws[k,q]) + (∑ k, H[r,k] · Wn[k,q]) + B[q], 0),
  with `X` the node features, `H` the mean of the neighbours' features, `Ws`, `Wn` the two weight matrices and
  `B` the bias.  `edgeCol S D` is the score of every edge: at edge `e`,
      logistic (logistic (∑ k, S[e,k] · D[e,k])),
  with `S`, `D` the features gathered at the edge's two end points.  Both the kernel's blocks and the reference's
  host operations are shown to compute these two functions.
-/
import Idealize.ShloMosaic.PureOps.Ideal
import Idealize.ShloMosaic.Lib.ValueIdx

noncomputable section

namespace Cert.Spec

open Idealize.ShloMosaic Idealize.ShloMosaic.ValueIdx

abbrev Nodes : Shape := ⟨2, ![50000, 64]⟩
abbrev Weights : Shape := ⟨2, ![64, 64]⟩
abbrev Bias : Shape := ⟨1, ![64]⟩
abbrev EdgeFeat : Shape := ⟨2, ![800000, 64]⟩
abbrev EdgeCol : Shape := ⟨2, ![800000, 1]⟩

/-- One layer at node `r`, feature `q`. -/
def combineRow (X H : FVec Ideal Nodes .f32) (Ws Wn : FVec Ideal Weights .f32) (B : FVec Ideal Bias .f32)
    (r : Fin 50000) (q : Fin 64) : EReal :=
  max ((∑ k : Fin 64, X (ix2 r k) * Ws (ix2 k q)) + (∑ k : Fin 64, H (ix2 r k) * Wn (ix2 k q)) + B (ix1 q))
    (Ideal.ofBits .f32 0x00000000#32)

/-- One layer as an array. -/
def combineArr (X H : FVec Ideal Nodes .f32) (Ws Wn : FVec Ideal Weights .f32) (B : FVec Ideal Bias .f32) :
    FVec Ideal Nodes .f32 :=
  fun i => combineRow X H Ws Wn B ⟨(i 0).val, (i 0).isLt⟩ ⟨(i 1).val, (i 1).isLt⟩

/-- The score of edge `e`. -/
def edgeRow (S D : FVec Ideal EdgeFeat .f32) (e : Fin 800000) : EReal :=
  Ideal.logistic (Ideal.logistic (∑ k : Fin 64, S (ix2 e k) * D (ix2 e k)))

/-- The scores as an 800000×1 column. -/
def edgeCol (S D : FVec Ideal EdgeFeat .f32) : FVec Ideal EdgeCol .f32 :=
  fun i => edgeRow S D ⟨(i 0).val, (i 0).isLt⟩

end Cert.Spec

end
-- ==== Proof.BlockArr.lean ====
/-
  A block of the kernel against the whole-array functions.

  Point `T` of the combine kernel's grid holds rows `5000·T … 5000·T + 4999` of the node arrays and the whole of the
  weight matrices and the bias; point `T` of the edge kernel's grid holds rows `4000·T … 4000·T + 3999` of the two
  gathered feature arrays.  So what a block stores at its row `p` is the whole-array function at row
  `5000·T + p` (respectively `4000·T + p`).  Stated here over plain variables: the blocks and arrays are any
  functions related in that way.
-/
import proofs.«172390_j13804024889624_2_alg».proof.Proof.BlockLayer
import proofs.«172390_j13804024889624_2_alg».proof.Proof.BlockEdge
import proofs.«172390_j13804024889624_2_alg».proof.Proof.Spec

noncomputable section

namespace Cert.KernelIdeal.Block

open Cert.KernelIdeal Cert.Spec Idealize.ShloMosaic Idealize.ShloMosaic.ValueIdx

/-- The combine kernel's block at point `T`, row `p`, column `q` is the layer at row `5000·T + p`, column `q`. -/
theorem combineAt_eq (X H : FVec Ideal Nodes .f32) (Ws Wn : FVec Ideal Weights .f32) (B : FVec Ideal Bias .f32)
    (x h : FVec Ideal S5000x64 .f32) (ws wn : FVec Ideal S64x64 .f32) (b : FVec Ideal S64 .f32) (T : Nat)
    (hx : ∀ (y : S5000x64.Idx) (i : Nodes.Idx), (i 0).val = T * 5000 + (y 0).val → (i 1).val = (y 1).val → x y = X i)
    (hh : ∀ (y : S5000x64.Idx) (i : Nodes.Idx), (i 0).val = T * 5000 + (y 0).val → (i 1).val = (y 1).val → h y = H i)
    (hws : ws = Ws) (hwn : wn = Wn) (hb : b = B)
    (p : Fin 5000) (q : Fin 64) (i : Nodes.Idx) (h0 : (i 0).val = T * 5000 + p.val) (h1 : (i 1).val = q.val) :
    combineAt x h ws wn b p q = combineArr X H Ws Wn B i := by
  subst hws hwn hb
  unfold combineAt combineArr combineRow
  have hq : (⟨(i 1).val, (i 1).isLt⟩ : Fin 64) = q := Fin.ext h1
  rw [hq]
  have ex : ∀ k : Fin 64, x (ix2 p k) = X (ix2 ⟨(i 0).val, (i 0).isLt⟩ k) := fun k => hx (ix2 p k) (ix2 ⟨(i 0).val, (i 0).isLt⟩ k) h0 rfl
  have eh : ∀ k : Fin 64, h (ix2 p k) = H (ix2 ⟨(i 0).val, (i 0).isLt⟩ k) := fun k => hh (ix2 p k) (ix2 ⟨(i 0).val, (i 0).isLt⟩ k) h0 rfl
  simp only [ex, eh]

/-- The edge kernel's block at point `T`, row `p` is the score of edge `4000·T + p`. -/
theorem edgeAt_eq (S D : FVec Ideal EdgeFeat .f32) (s d : FVec Ideal S4000x64 .f32) (T : Nat)
    (hs : ∀ (y : S4000x64.Idx) (i : EdgeFeat.Idx), (i 0).val = T * 4000 + (y 0).val → (i 1).val = (y 1).val → s y = S i)
    (hd : ∀ (y : S4000x64.Idx) (i : EdgeFeat.Idx), (i 0).val = T * 4000 + (y 0).val → (i 1).val = (y 1).val → d y = D i)
    (p : Fin 4000) (i : EdgeCol.Idx) (h0 : (i 0).val = T * 4000 + p.val) :
    edgeAt s d p = edgeCol S D i := by
  unfold edgeAt edgeCol edgeRow
  have es : ∀ k : Fin 64, s (ix2 p k) = S (ix2 ⟨(i 0).val, (i 0).isLt⟩ k) := fun k => hs (ix2 p k) (ix2 ⟨(i 0).val, (i 0).isLt⟩ k) h0 rfl
  have ed : ∀ k : Fin 64, d (ix2 p k) = D (ix2 ⟨(i 0).val, (i 0).isLt⟩ k) := fun k => hd (ix2 p k) (ix2 ⟨(i 0).val, (i 0).isLt⟩ k) h0 rfl
  simp only [es, ed]

end Cert.KernelIdeal.Block

end
-- ==== Proof.Region0.lean ====
/-
  The first combine kernel's output array.

  The grid has ten points; point `t` stages rows `5000·t … 5000·t + 4999` of the node features and of the aggregated
  neighbour features, the whole weight matrices and the bias, and writes back rows `5000·t … 5000·t + 4999` of the
  output.  What point `t` writes back is therefore block `t` of the layer function `combineArr` of the arrays as the
  region finds them, and the ten blocks cover the output: after the region the output array IS `combineArr` of the
  region's entry arrays.  Stated at any entry contents `V`.
-/
import proofs.«172390_j13804024889624_2_alg».proof.Proof.Gen.KernelIdeal.Frame
import proofs.«172390_j13804024889624_2_alg».proof.Proof.BlockArr

set_option maxRecDepth 16384

noncomputable section

namespace Cert.KernelIdeal.Region0

open Cert.KernelIdeal Cert.KernelIdeal.Gen Cert.KernelIdeal.Block Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two node windows move with the output window down the rows, the weights and
    the bias stay, and the output's block row is the point's number. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is block `t` of the layer function of the entry arrays. -/
theorem flushed_eq (c : Dev nD) (t : Fin cfg0.N) :
    (dat0 V c).flushed 5 t = ((cfg0.win 5).blk t).view.read (Elt Ideal)
      (combineArr (V c main_arg0) (V c main_v18) (V c main_arg3) (V c main_arg4) (V c main_arg5)) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S64x64) hz2, View.ld_unit_zero (S := S64) hz1]
  obtain ⟨e00, e01, e10, e11, e20, e21, e30, e31, e40, e50, e51⟩ := idx_facts t
  refine funext fun (j : S5000x64.Idx) => ?_
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = combineArr (V c main_arg0) (V c main_v18) (V c main_arg3) (V c main_arg4) (V c main_arg5)
        (((cfg0.win 5).blk t).view.emb (ix2 p q))
  refine (pay0_at (iblk0 V c 0 t) (iblk0 V c 1 t) (iblk0 V c 2 t) (iblk0 V c 3 t) (iblk0 V c 4 t) p q).trans ?_
  refine combineAt_eq (V c main_arg0) (V c main_v18) (V c main_arg3) (V c main_arg4) (V c main_arg5)
    (iblk0 V c 0 t) (iblk0 V c 1 t) (iblk0 V c 2 t) (iblk0 V c 3 t) (iblk0 V c 4 t) (win0_5.index t (0 : Fin 2))
    ?_ ?_ ?_ ?_ ?_ p q (((cfg0.win 5).blk t).view.emb (ix2 p q)) ?_ ?_
  · intro y i a0 a1
    show V c main_arg0 (((cfg0.win 0).blk t).view.emb y) = V c main_arg0 i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 64 + 1 * (y 1).val = (i 1).val; omega
  · intro y i a0 a1
    show V c main_v18 (((cfg0.win 1).blk t).view.emb y) = V c main_v18 i
    refine congrArg _ (funext fun a => Fin.ext ?_)
    match a with
    | ⟨0, _⟩ => show win0_1.index t (0 : Fin 2) * 5000 + 1 * (y 0).val = (i 0).val; omega
    | ⟨1, _⟩ => show win0_1.index t (1 : Fin 2) * 64 + 1 * (y 1).val = (i 1).val; omega
  · refine funext fun (y : S64x64.Idx) => ?_
    show V c main_arg3 (((cfg0.win 2).blk t).view.emb y) = V c main_arg3 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · refine funext fun (y : S64x64.Idx) => ?_
    show V c main_arg4 (((cfg0.win 3).blk t).view.emb y) = V c main_arg4 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · refine funext fun (y : S64.Idx) => ?_
    show V c main_arg5 (((cfg0.win 4).blk t).view.emb y) = V c main_arg5 y
    refine congrArg _ (funext fun a => Fin.ext ?_)
    match a with
    | ⟨0, _⟩ => show win0_4.index t (0 : Fin 1) * 64 + 1 * (y 0).val = (y 0).val; omega
  · show win0_5.index t (0 : Fin 2) * 5000 + 1 * p.val = win0_5.index t (0 : Fin 2) * 5000 + p.val; omega
  · show win0_5.index t (1 : Fin 2) * 64 + 1 * q.val = q.val; omega

/-- An index of the output array lies in point `t`'s block iff each coordinate is in the block's range. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v19).slice (win0_5.rect t)).set ↔ _
  rw [View.set_slice_whole, Rect.mem_set_unit]
  exact Iff.rfl

/-- Row `r` of the output is written by point `r / 5000`. -/
theorem cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : grid0.N = 10 := N_0
  let t : Fin cfg0.N := ⟨(i 0).val / 5000, by show (i 0).val / 5000 < grid0.N; omega⟩
  obtain ⟨e00, e01, e10, e11, e20, e21, e30, e31, e40, e50, e51⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After the region the output array is the layer function of the region's entry arrays. -/
theorem out_eq (c : Dev nD) :
    (dat0 V c).arrAt 5 cfg0.N = combineArr (V c main_arg0) (V c main_v18) (V c main_arg3) (V c main_arg4) (V c main_arg5) :=
  (dat0 V c).arrAt_eq_of_cover 5 _ (fun t _ => flushed_eq V c t) cover

end Cert.KernelIdeal.Region0

end
-- ==== Proof.Region1.lean ====
/-
  The second combine kernel's output array.

  The grid has ten points; point `t` stages rows `5000·t … 5000·t + 4999` of the first layer's output and of its aggregated
  neighbour features, the whole weight matrices and the bias, and writes back rows `5000·t … 5000·t + 4999` of the
  output.  What point `t` writes back is therefore block `t` of the layer function `combineArr` of the arrays as the
  region finds them, and the ten blocks cover the output: after the region the output array IS `combineArr` of the
  region's entry arrays.  Stated at any entry contents `V`.
-/
import proofs.«172390_j13804024889624_2_alg».proof.Proof.Gen.KernelIdeal.Frame
import proofs.«172390_j13804024889624_2_alg».proof.Proof.BlockArr

set_option maxRecDepth 16384

noncomputable section

namespace Cert.KernelIdeal.Region1

open Cert.KernelIdeal Cert.KernelIdeal.Gen Cert.KernelIdeal.Block Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the two node windows move with the output window down the rows, the weights and
    the bias stay, and the output's block row is the point's number. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the layer function of the entry arrays. -/
theorem flushed_eq (c : Dev nD) (t : Fin cfg1.N) :
    (dat1 V c).flushed 5 t = ((cfg1.win 5).blk t).view.read (Elt Ideal)
      (combineArr (V c main_v19) (V c main_v38) (V c main_arg6) (V c main_arg7) (V c main_arg8)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S64x64) hz2, View.ld_unit_zero (S := S64) hz1]
  obtain ⟨e00, e01, e10, e11, e20, e21, e30, e31, e40, e50, e51⟩ := idx_facts t
  refine funext fun (j : S5000x64.Idx) => ?_
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = combineArr (V c main_v19) (V c main_v38) (V c main_arg6) (V c main_arg7) (V c main_arg8)
        (((cfg1.win 5).blk t).view.emb (ix2 p q))
  refine (pay1_at (iblk1 V c 0 t) (iblk1 V c 1 t) (iblk1 V c 2 t) (iblk1 V c 3 t) (iblk1 V c 4 t) p q).trans ?_
  refine combineAt_eq (V c main_v19) (V c main_v38) (V c main_arg6) (V c main_arg7) (V c main_arg8)
    (iblk1 V c 0 t) (iblk1 V c 1 t) (iblk1 V c 2 t) (iblk1 V c 3 t) (iblk1 V c 4 t) (win1_5.index t (0 : Fin 2))
    ?_ ?_ ?_ ?_ ?_ p q (((cfg1.win 5).blk t).view.emb (ix2 p q)) ?_ ?_
  · intro y i a0 a1
    show V c main_v19 (((cfg1.win 0).blk t).view.emb y) = V c main_v19 i
    refine congrArg _ (funext fun a => Fin.ext ?_)
    match a with
    | ⟨0, _⟩ => show win1_0.index t (0 : Fin 2) * 5000 + 1 * (y 0).val = (i 0).val; omega
    | ⟨1, _⟩ => show win1_0.index t (1 : Fin 2) * 64 + 1 * (y 1).val = (i 1).val; omega
  · intro y i a0 a1
    show V c main_v38 (((cfg1.win 1).blk t).view.emb y) = V c main_v38 i
    refine congrArg _ (funext fun a => Fin.ext ?_)
    match a with
    | ⟨0, _⟩ => show win1_1.index t (0 : Fin 2) * 5000 + 1 * (y 0).val = (i 0).val; omega
    | ⟨1, _⟩ => show win1_1.index t (1 : Fin 2) * 64 + 1 * (y 1).val = (i 1).val; omega
  · refine funext fun (y : S64x64.Idx) => ?_
    show V c main_arg6 (((cfg1.win 2).blk t).view.emb y) = V c main_arg6 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · refine funext fun (y : S64x64.Idx) => ?_
    show V c main_arg7 (((cfg1.win 3).blk t).view.emb y) = V c main_arg7 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · refine funext fun (y : S64.Idx) => ?_
    show V c main_arg8 (((cfg1.win 4).blk t).view.emb y) = V c main_arg8 y
    refine congrArg _ (funext fun a => Fin.ext ?_)
    match a with
    | ⟨0, _⟩ => show win1_4.index t (0 : Fin 1) * 64 + 1 * (y 0).val = (y 0).val; omega
  · show win1_5.index t (0 : Fin 2) * 5000 + 1 * p.val = win1_5.index t (0 : Fin 2) * 5000 + p.val; omega
  · show win1_5.index t (1 : Fin 2) * 64 + 1 * q.val = q.val; omega

/-- An index of the output array lies in point `t`'s block iff each coordinate is in the block's range. -/
theorem mem_blk (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v39).slice (win1_5.rect t)).set ↔ _
  rw [View.set_slice_whole, Rect.mem_set_unit]
  exact Iff.rfl

/-- Row `r` of the output is written by point `r / 5000`. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; omega⟩
  obtain ⟨e00, e01, e10, e11, e20, e21, e30, e31, e40, e50, e51⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After the region the output array is the layer function of the region's entry arrays. -/
theorem out_eq (c : Dev nD) :
    (dat1 V c).arrAt 5 cfg1.N = combineArr (V c main_v19) (V c main_v38) (V c main_arg6) (V c main_arg7) (V c main_arg8) :=
  (dat1 V c).arrAt_eq_of_cover 5 _ (fun t _ => flushed_eq V c t) cover

end Cert.KernelIdeal.Region1

end
-- ==== Proof.Region2.lean ====
/-
  The edge-score kernel's output array.

  The grid has two hundred points; point `t` stages rows `4000·t … 4000·t + 3999` of the features gathered at the
  edges' source nodes and at their destination nodes, and writes back rows `4000·t … 4000·t + 3999` of the 800000×1
  column of scores.  What point `t` writes back is block `t` of the score function `edgeCol` of the two gathered
  arrays as the region finds them, and the blocks cover the column: after the region the column IS `edgeCol` of the
  region's entry arrays.  Stated at any entry contents `V`.
-/
import proofs.«172390_j13804024889624_2_alg».proof.Proof.Gen.KernelIdeal.Frame
import proofs.«172390_j13804024889624_2_alg».proof.Proof.BlockArr

set_option maxRecDepth 16384

noncomputable section

namespace Cert.KernelIdeal.Region2

open Cert.KernelIdeal Cert.KernelIdeal.Gen Cert.KernelIdeal.Block Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the two input windows move with the output window down the rows, and the
    output's block row is the point's number. -/
theorem idx_facts : ∀ t : Fin cfg2.N,
    win2_0.index t (0 : Fin 2) = win2_2.index t (0 : Fin 2) ∧ win2_0.index t (1 : Fin 2) = 0
    ∧ win2_1.index t (0 : Fin 2) = win2_2.index t (0 : Fin 2) ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the score function of the entry arrays. -/
theorem flushed_eq (c : Dev nD) (t : Fin cfg2.N) :
    (dat2 V c).flushed 2 t = ((cfg2.win 2).blk t).view.read (Elt Ideal) (edgeCol (V c main_v46) (V c main_v53)) := by
  show (cfg2.win 2).cut (grid2.coords t) ((dat2 V c).after 2 t) = _
  rw [after2_2]
  unfold out2_2
  rw [View.canon_unit_zero hz2]
  simp only [View.ld_unit_zero (S := S4000x64) hz2]
  obtain ⟨e00, e01, e10, e11, e20, e21⟩ := idx_facts t
  refine funext fun (j : S4000x1.Idx) => ?_
  obtain ⟨p, u, rfl⟩ : ∃ (p : Fin 4000) (u : Fin 1), j = ix2 p u := ⟨j 0, j 1, eq_ix2 j⟩
  show k2_pay1 (F := Ideal) (iblk2 V c 0 t) (iblk2 V c 1 t) (ix2 p u)
    = edgeCol (V c main_v46) (V c main_v53) (((cfg2.win 2).blk t).view.emb (ix2 p u))
  refine (pay2_at (iblk2 V c 0 t) (iblk2 V c 1 t) p u).trans ?_
  refine edgeAt_eq (V c main_v46) (V c main_v53) (iblk2 V c 0 t) (iblk2 V c 1 t) (win2_2.index t (0 : Fin 2))
    ?_ ?_ p (((cfg2.win 2).blk t).view.emb (ix2 p u)) ?_
  · intro y i a0 a1
    show V c main_v46 (((cfg2.win 0).blk t).view.emb y) = V c main_v46 i
    refine congrArg _ (funext fun a => Fin.ext ?_)
    match a with
    | ⟨0, _⟩ => show win2_0.index t (0 : Fin 2) * 4000 + 1 * (y 0).val = (i 0).val; omega
    | ⟨1, _⟩ => show win2_0.index t (1 : Fin 2) * 64 + 1 * (y 1).val = (i 1).val; omega
  · intro y i a0 a1
    show V c main_v53 (((cfg2.win 1).blk t).view.emb y) = V c main_v53 i
    refine congrArg _ (funext fun a => Fin.ext ?_)
    match a with
    | ⟨0, _⟩ => show win2_1.index t (0 : Fin 2) * 4000 + 1 * (y 0).val = (i 0).val; omega
    | ⟨1, _⟩ => show win2_1.index t (1 : Fin 2) * 64 + 1 * (y 1).val = (i 1).val; omega
  · show win2_2.index t (0 : Fin 2) * 4000 + 1 * p.val = win2_2.index t (0 : Fin 2) * 4000 + p.val; omega

/-- An index of the column lies in point `t`'s block iff each coordinate is in the block's range. -/
theorem mem_blk (t : Fin cfg2.N) (i : S800000x1.Idx) :
    i ∈ ((cfg2.win 2).blk t).view.set ↔ ∀ a : Fin 2, win2_2.index t a * S4000x1.size a ≤ (i a).val
      ∧ (i a).val < win2_2.index t a * S4000x1.size a + S4000x1.size a := by
  show i ∈ ((View.whole main_v54).slice (win2_2.rect t)).set ↔ _
  rw [View.set_slice_whole, Rect.mem_set_unit]
  exact Iff.rfl

/-- Row `e` of the column is written by point `e / 4000`. -/
theorem cover (i : S800000x1.Idx) :
    ∃ t : Fin cfg2.N, (cfg2.win 2).flush t = true ∧ i ∈ ((cfg2.win 2).blk t).view.set := by
  have hi0 : (i 0).val < 800000 := (i 0).isLt
  have hi1 : (i 1).val < 1 := (i 1).isLt
  have hN : grid2.N = 200 := N_2
  let t : Fin cfg2.N := ⟨(i 0).val / 4000, by show (i 0).val / 4000 < grid2.N; omega⟩
  obtain ⟨e00, e01, e10, e11, e20, e21⟩ := idx_facts t
  have ht : t.val = (i 0).val / 4000 := rfl
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 1 ≤ (i 1).val ∧ (i 1).val < win2_2.index t (1 : Fin 2) * 1 + 1; omega

/-- After the region the column of scores is the score function of the region's entry arrays. -/
theorem out_eq (c : Dev nD) :
    (dat2 V c).arrAt 2 cfg2.N = edgeCol (V c main_v46) (V c main_v53) :=
  (dat2 V c).arrAt_eq_of_cover 2 _ (fun t _ => flushed_eq V c t) cover

end Cert.KernelIdeal.Region2

end
-- ==== Proof.KernelValue.lean ====
/-
  The idealized kernel's result as one function of the nine argument arrays.

  Following the fold of buffer contents through @main: the first stretch of host operations leaves the neighbour
  mean of the features; the first combine kernel leaves the first layer (the layer function of the features and
  that mean); the second stretch leaves the neighbour mean of the first layer; the second combine kernel leaves
  the second layer; the third stretch gathers the second layer's rows at the edges' end points; the edge kernel
  leaves the column of scores; the closing reshape flattens it.  No stretch and no kernel writes an argument
  array, so every argument read along the way is the launch memory's.
-/
import proofs.«172390_j13804024889624_2_alg».proof.Proof.Gen.KernelIdeal.Frame
import proofs.«172390_j13804024889624_2_alg».proof.Proof.HostChains
import proofs.«172390_j13804024889624_2_alg».proof.Proof.Region0
import proofs.«172390_j13804024889624_2_alg».proof.Proof.Region1
import proofs.«172390_j13804024889624_2_alg».proof.Proof.Region2

set_option maxRecDepth 16384

noncomputable section

namespace Cert.KernelIdeal.Closed

open Cert.KernelIdeal Cert.KernelIdeal.Gen Cert.KernelIdeal.Chains Cert.Spec
open Idealize.ShloMosaic Idealize.ShloMosaic.TcCoe Idealize.SL.Sem

/-- The first layer. -/
def layer1 (a0 : FVec Ideal S50000x64 .f32) (a1 a2 : IVec S800000 32) (a3 a4 : FVec Ideal S64x64 .f32)
    (a5 : FVec Ideal S64 .f32) : FVec Ideal S50000x64 .f32 :=
  combineArr a0 (meanAgg a0 a1 a2) a3 a4 a5

/-- The second layer. -/
def layer2 (a0 : FVec Ideal S50000x64 .f32) (a1 a2 : IVec S800000 32) (a3 a4 : FVec Ideal S64x64 .f32)
    (a5 : FVec Ideal S64 .f32) (a6 a7 : FVec Ideal S64x64 .f32) (a8 : FVec Ideal S64 .f32) : FVec Ideal S50000x64 .f32 :=
  combineArr (layer1 a0 a1 a2 a3 a4 a5) (meanAgg (layer1 a0 a1 a2 a3 a4 a5) a1 a2) a6 a7 a8

/-- The scores of all edges. -/
def scores (a0 : FVec Ideal S50000x64 .f32) (a1 a2 : IVec S800000 32) (a3 a4 : FVec Ideal S64x64 .f32)
    (a5 : FVec Ideal S64 .f32) (a6 a7 : FVec Ideal S64x64 .f32) (a8 : FVec Ideal S64 .f32) : FVec Ideal S800000 .f32 :=
  flatten (edgeCol (gatherRows (layer2 a0 a1 a2 a3 a4 a5 a6 a7 a8) a1) (gatherRows (layer2 a0 a1 a2 a3 a4 a5 a6 a7 a8) a2))

variable (m : (ℓ : Loc nD τ sig) → Buf (Elt Ideal) ℓ) (ρ : Dev nD → PrngReg)

/-! ## The arguments along the fold -/
theorem W1_arg0 (c : Dev nD) : W1 m ρ c (Proc.devRef .tc main_arg0) = m ((c : Thread nD τ).loc main_arg0) :=
  after0_arg0 (W0 m ρ c)
theorem W1_arg1 (c : Dev nD) : W1 m ρ c (Proc.devRef .tc main_arg1) = m ((c : Thread nD τ).loc main_arg1) :=
  after0_arg1 (W0 m ρ c)
theorem W1_arg2 (c : Dev nD) : W1 m ρ c (Proc.devRef .tc main_arg2) = m ((c : Thread nD τ).loc main_arg2) :=
  after0_arg2 (W0 m ρ c)
theorem W1_arg3 (c : Dev nD) : W1 m ρ c (Proc.devRef .tc main_arg3) = m ((c : Thread nD τ).loc main_arg3) :=
  after0_arg3 (W0 m ρ c)
theorem W1_arg4 (c : Dev nD) : W1 m ρ c (Proc.devRef .tc main_arg4) = m ((c : Thread nD τ).loc main_arg4) :=
  after0_arg4 (W0 m ρ c)
theorem W1_arg5 (c : Dev nD) : W1 m ρ c (Proc.devRef .tc main_arg5) = m ((c : Thread nD τ).loc main_arg5) :=
  after0_arg5 (W0 m ρ c)
theorem W1_arg6 (c : Dev nD) : W1 m ρ c (Proc.devRef .tc main_arg6) = m ((c : Thread nD τ).loc main_arg6) :=
  after0_arg6 (W0 m ρ c)
theorem W1_arg7 (c : Dev nD) : W1 m ρ c (Proc.devRef .tc main_arg7) = m ((c : Thread nD τ).loc main_arg7) :=
  after0_arg7 (W0 m ρ c)
theorem W1_arg8 (c : Dev nD) : W1 m ρ c (Proc.devRef .tc main_arg8) = m ((c : Thread nD τ).loc main_arg8) :=
  after0_arg8 (W0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (after1_arg1 (W2 m ρ c)).trans (W2_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (after1_arg2 (W2 m ρ c)).trans (W2_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W3_arg6 (c : Dev nD) : W3 m ρ c (Proc.devRef .tc main_arg6) = m ((c : Thread nD τ).loc main_arg6) :=
  (after1_arg6 (W2 m ρ c)).trans (W2_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) :=
  (after1_arg7 (W2 m ρ c)).trans (W2_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (after1_arg8 (W2 m ρ c)).trans (W2_arg8 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)

/-! ## The computed buffers along the fold -/

/-- Entering the first combine kernel, the neighbour-mean buffer holds the mean of the features. -/
theorem W1_v18 (c : Dev nD) : W1 m ρ c (Proc.devRef .tc main_v18)
    = meanAgg (m ((c : Thread nD τ).loc main_arg0)) (m ((c : Thread nD τ).loc main_arg1)) (m ((c : Thread nD τ).loc main_arg2)) :=
  after0_v18 (W0 m ρ c)

/-- Leaving it, its output buffer holds the first layer. -/
theorem W2_v19 (c : Dev nD) : W2 m ρ c (Proc.devRef .tc main_v19) = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Region0.out_eq (V1 m ρ) c).trans ?_)
  unfold layer1
  rw [show V1 m ρ c main_arg0 = _ from W1_arg0 m ρ c, show V1 m ρ c main_v18 = _ from W1_v18 m ρ c,
    show V1 m ρ c main_arg3 = _ from W1_arg3 m ρ c, show V1 m ρ c main_arg4 = _ from W1_arg4 m ρ c,
    show V1 m ρ c main_arg5 = _ from W1_arg5 m ρ c]

/-- Entering the second combine kernel: the first layer, and its neighbour mean. -/
theorem W3_v19 (c : Dev nD) : W3 m ρ c (Proc.devRef .tc main_v19) = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (after1_v19 (W2 m ρ c)).trans (W2_v19 m ρ c)
theorem W3_v38 (c : Dev nD) : W3 m ρ c (Proc.devRef .tc main_v38)
    = meanAgg (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  refine (after1_v38 (W2 m ρ c)).trans ?_
  rw [W2_v19, W2_arg1, W2_arg2]

/-- Leaving it, its output buffer holds the second layer. -/
theorem W4_v39 (c : Dev nD) : W4 m ρ c (Proc.devRef .tc main_v39) = layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Region1.out_eq (V3 m ρ) c).trans ?_)
  unfold layer2
  rw [show V3 m ρ c main_v19 = _ from W3_v19 m ρ c, show V3 m ρ c main_v38 = _ from W3_v38 m ρ c,
    show V3 m ρ c main_arg6 = _ from W3_arg6 m ρ c, show V3 m ρ c main_arg7 = _ from W3_arg7 m ρ c,
    show V3 m ρ c main_arg8 = _ from W3_arg8 m ρ c]

/-- Entering the edge kernel: the second layer's rows at the edges' source nodes and destination nodes. -/
theorem W5_v46 (c : Dev nD) : W5 m ρ c (Proc.devRef .tc main_v46) = gatherRows (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1)) := by
  refine (after2_v46 (W4 m ρ c)).trans ?_
  rw [W4_v39, W4_arg1]
theorem W5_v53 (c : Dev nD) : W5 m ρ c (Proc.devRef .tc main_v53) = gatherRows (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2)) := by
  refine (after2_v53 (W4 m ρ c)).trans ?_
  rw [W4_v39, W4_arg2]

/-- Leaving it, its output buffer holds the column of scores. -/
theorem W6_v54 (c : Dev nD) : W6 m ρ c (Proc.devRef .tc main_v54)
    = edgeCol (gatherRows (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg1))) (gatherRows (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg2))) := by
  refine (W6_arr m ρ c 2).trans ((Region2.out_eq (V5 m ρ) c).trans ?_)
  rw [show V5 m ρ c main_v46 = _ from W5_v46 m ρ c, show V5 m ρ c main_v53 = _ from W5_v53 m ρ c]

/-- At the return the result buffer holds the scores. -/
theorem W7_v55 (c : Dev nD) : W7 m ρ c (Proc.devRef .tc main_v55) = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (after3_v55 (W6 m ρ c)).trans ?_
  rw [W6_v54]
  rfl

end Cert.KernelIdeal.Closed

end
-- ==== Proof.RefSide.lean ====
/-
  The reference, stage by stage, as the layer and score functions.

  The reference computes each layer with two whole-array matrix products, a broadcast bias and a maximum with zero,
  and the score with a product, a sum over the 64 features and twice the quotient `1 / (1 + exp (-x))`.  Read at an
  index the matrix products are sums over the contracted coordinate and the quotient is the logistic function, so:
  the first layer's output is `combineArr` of the features and their neighbour mean; the second layer's output is
  `combineArr` of the first layer's output and ITS neighbour mean; and the result at edge `e` is `edgeRow` of the
  second layer's rows gathered at the edge's end points.  The neighbour mean and the gather are the same host
  operations in both layers, applied to different arrays.
-/
import proofs.«172390_j13804024889624_2_alg».proof.Proof.Gen.ReferenceIdeal.Read
import proofs.«172390_j13804024889624_2_alg».proof.Proof.Spec
import Idealize.ShloMosaic.Lib.IdealHost

noncomputable section

namespace Cert.ReferenceIdeal.Stages

open Cert.ReferenceIdeal Cert.ReferenceIdeal.Gen Cert.ReferenceIdeal.Read Cert.Spec
open Idealize.ShloMosaic Idealize.ShloMosaic.ValueIdx

variable (a0 : FVec Ideal S50000x64 .f32) (a1 a2 : IVec S800000 32) (a3 a4 : FVec Ideal S64x64 .f32)
  (a5 : FVec Ideal S64 .f32) (a6 a7 : FVec Ideal S64x64 .f32) (a8 : FVec Ideal S64 .f32)

/-- The first layer's output is the layer function of the features and their neighbour mean. -/
theorem layer1_eq : val_main_v25 (F := Ideal) a0 a1 a2 a3 a4 a5 = combineArr a0 (val_main_v18 (F := Ideal) a0 a1 a2) a3 a4 a5 := by
  funext i
  rw [val_main_v25_apply, val_main_v24_apply, val_main_v21_apply, val_main_v19_apply, val_main_v20_apply,
    val_main_v23_apply, val_main_v22_apply, val_main_call0_v0_apply, val_main_call0_cst_apply]
  unfold combineArr combineRow
  have el : ∀ k : Fin 64, lidx_main_v19 i k = ix2 ⟨(i 0).val, (i 0).isLt⟩ k := fun k => funext fun a => Fin.ext (by
    match a with | ⟨0, _⟩ => rfl | ⟨1, _⟩ => rfl)
  have er : ∀ k : Fin 64, ridx_main_v19 i k = ix2 k ⟨(i 1).val, (i 1).isLt⟩ := fun k => funext fun a => Fin.ext (by
    match a with | ⟨0, _⟩ => rfl | ⟨1, _⟩ => rfl)
  have el' : ∀ k : Fin 64, lidx_main_v20 i k = ix2 ⟨(i 0).val, (i 0).isLt⟩ k := fun k => funext fun a => Fin.ext (by
    match a with | ⟨0, _⟩ => rfl | ⟨1, _⟩ => rfl)
  have er' : ∀ k : Fin 64, ridx_main_v20 i k = ix2 k ⟨(i 1).val, (i 1).isLt⟩ := fun k => funext fun a => Fin.ext (by
    match a with | ⟨0, _⟩ => rfl | ⟨1, _⟩ => rfl)
  have eb : idx_main_v22 (idx_main_v23 i) = ix1 ⟨(i 1).val, (i 1).isLt⟩ := funext fun a => Fin.ext (by
    match a with | ⟨0, _⟩ => rfl)
  simp only [el, er, el', er', eb]
  rfl

/-- The second layer's output is the layer function of the first layer's output and its neighbour mean. -/
theorem layer2_eq : val_main_v51 (F := Ideal) a0 a1 a2 a3 a4 a5 a6 a7 a8
    = combineArr (val_main_v25 (F := Ideal) a0 a1 a2 a3 a4 a5) (val_main_v44 (F := Ideal) a0 a1 a2 a3 a4 a5) a6 a7 a8 := by
  funext i
  rw [val_main_v51_apply, val_main_v50_apply, val_main_v47_apply, val_main_v45_apply, val_main_v46_apply,
    val_main_v49_apply, val_main_v48_apply, val_main_call1_v0_apply, val_main_call1_cst_apply]
  unfold combineArr combineRow
  have el : ∀ k : Fin 64, lidx_main_v45 i k = ix2 ⟨(i 0).val, (i 0).isLt⟩ k := fun k => funext fun a => Fin.ext (by
    match a with | ⟨0, _⟩ => rfl | ⟨1, _⟩ => rfl)
  have er : ∀ k : Fin 64, ridx_main_v45 i k = ix2 k ⟨(i 1).val, (i 1).isLt⟩ := fun k => funext fun a => Fin.ext (by
    match a with | ⟨0, _⟩ => rfl | ⟨1, _⟩ => rfl)
  have el' : ∀ k : Fin 64, lidx_main_v46 i k = ix2 ⟨(i 0).val, (i 0).isLt⟩ k := fun k => funext fun a => Fin.ext (by
    match a with | ⟨0, _⟩ => rfl | ⟨1, _⟩ => rfl)
  have er' : ∀ k : Fin 64, ridx_main_v46 i k = ix2 k ⟨(i 1).val, (i 1).isLt⟩ := fun k => funext fun a => Fin.ext (by
    match a with | ⟨0, _⟩ => rfl | ⟨1, _⟩ => rfl)
  have eb : idx_main_v48 (idx_main_v49 i) = ix1 ⟨(i 1).val, (i 1).isLt⟩ := funext fun a => Fin.ext (by
    match a with | ⟨0, _⟩ => rfl)
  simp only [el, er, el', er', eb]
  rfl

/-- The second layer's neighbour mean is the first layer's host operations applied to the first layer's output. -/
theorem mean2_eq : val_main_v44 (F := Ideal) a0 a1 a2 a3 a4 a5 = val_main_v18 (F := Ideal) (val_main_v25 (F := Ideal) a0 a1 a2 a3 a4 a5) a1 a2 := rfl

/-- The rows gathered at the edges' source nodes, and at their destination nodes: the first layer's gather applied
    to the second layer's output. -/
theorem gatherSrc_eq : val_main_v58 (F := Ideal) a0 a1 a2 a3 a4 a5 a6 a7 a8 = val_main_v6 (F := Ideal) (val_main_v51 (F := Ideal) a0 a1 a2 a3 a4 a5 a6 a7 a8) a1 := rfl
theorem gatherDst_eq : val_main_v65 (F := Ideal) a0 a1 a2 a3 a4 a5 a6 a7 a8 = val_main_v6 (F := Ideal) (val_main_v51 (F := Ideal) a0 a1 a2 a3 a4 a5 a6 a7 a8) a2 := rfl

/-- The result at edge `e` is the score function of the two gathered arrays. -/
theorem score_eq (e : S800000.Idx) : val_main_v79 (F := Ideal) a0 a1 a2 a3 a4 a5 a6 a7 a8 e
    = edgeRow (val_main_v58 (F := Ideal) a0 a1 a2 a3 a4 a5 a6 a7 a8) (val_main_v65 (F := Ideal) a0 a1 a2 a3 a4 a5 a6 a7 a8) ⟨(e 0).val, (e 0).isLt⟩ := by
  rw [val_main_v79_apply, val_main_v78_apply, val_main_cst_18_apply, val_main_v77_apply, val_main_v76_apply,
    val_main_cst_17_apply, val_main_v75_apply, val_main_v74_apply, val_main_v73_apply, val_main_v72_apply,
    val_main_cst_16_apply, val_main_v71_apply, val_main_v70_apply, val_main_cst_15_apply, val_main_v69_apply,
    val_main_v68_apply, val_main_v67_apply, val_main_cst_14_apply]
  have ei : ∀ k : Fin 64, idx_main_v67 e k = ix2 ⟨(e 0).val, (e 0).isLt⟩ k := fun k => funext fun a => Fin.ext (by
    match a with | ⟨0, _⟩ => rfl | ⟨1, _⟩ => rfl)
  simp only [val_main_v66_apply, ei]
  unfold edgeRow Ideal.logistic
  simp only [Ideal.hostDivf_def, Ideal.addf_def, Ideal.hostUnary_exp_def, Ideal.hostNegf_def, Ideal.negf_def,
    Ideal.mulf_def, Ideal.ofBits_def, Ideal.ofBits_one_f32, Ideal.ofBits_zero_f32, zero_add]
  rfl

end Cert.ReferenceIdeal.Stages

end
-- ==== Proof.Bridge.lean ====
/-
  The kernel's scores are the reference's result.

  Both sides are now the same composite: the layer function of the features and their neighbour mean, the layer
  function of that and ITS neighbour mean, the rows gathered at the edges' end points, and the score function of the
  two gathered arrays.  The neighbour mean and the gather are literally the same host operations in the two programs
  (the programs' shape records differ only in their side-condition proofs), and the kernel's closing reshape of the
  800000×1 column reads, at edge `e`, the column's row `e`.
-/
import proofs.«172390_j13804024889624_2_alg».proof.Proof.KernelValue
import proofs.«172390_j13804024889624_2_alg».proof.Proof.RefSide

noncomputable section

namespace Cert.Bridge

open Cert.Spec Idealize.ShloMosaic Idealize.ShloMosaic.ValueIdx

variable (a0 : FVec Ideal Cert.KernelIdeal.S50000x64 .f32) (a1 a2 : IVec Cert.KernelIdeal.S800000 32)
  (a3 a4 : FVec Ideal Cert.KernelIdeal.S64x64 .f32) (a5 : FVec Ideal Cert.KernelIdeal.S64 .f32)
  (a6 a7 : FVec Ideal Cert.KernelIdeal.S64x64 .f32) (a8 : FVec Ideal Cert.KernelIdeal.S64 .f32)

/-- The neighbour mean is one composite of host operations in both programs. -/
theorem meanAgg_eq (X : FVec Ideal Cert.KernelIdeal.S50000x64 .f32) (s d : IVec Cert.KernelIdeal.S800000 32) :
    Cert.KernelIdeal.Chains.meanAgg X s d = Cert.ReferenceIdeal.Read.val_main_v18 (F := Ideal) X s d := rfl

/-- So is the gather of a node array's rows at the edges' indices. -/
theorem gatherRows_eq (X : FVec Ideal Cert.KernelIdeal.S50000x64 .f32) (s : IVec Cert.KernelIdeal.S800000 32) :
    Cert.KernelIdeal.Chains.gatherRows X s = Cert.ReferenceIdeal.Read.val_main_v6 (F := Ideal) X s := rfl

/-- The flattened column at edge `e` is the column's row `e`. -/
theorem flatten_at (Y : FVec Ideal Cert.KernelIdeal.S800000x1 .f32) (e : Cert.KernelIdeal.S800000.Idx) :
    Cert.KernelIdeal.Chains.flatten Y e = Y (ix2 (⟨(e 0).val, (e 0).isLt⟩ : Fin 800000) (0 : Fin 1)) :=
  shapeCast_apply Y Cert.KernelIdeal.Facts₀.shapeCasts_S800000x1_S800000 _ _ (by
    rw [Shape.rowMajor_val_two, Shape.rowMajor_val_one]
    show (e 0).val * 1 + 0 = (e 0).val
    rw [Nat.mul_one, Nat.add_zero])

/-- The kernel's scores are the reference's result, as functions of the nine arguments. -/
theorem result_eq : Cert.KernelIdeal.Closed.scores a0 a1 a2 a3 a4 a5 a6 a7 a8
    = Cert.ReferenceIdeal.Read.val_main_v79 (F := Ideal) a0 a1 a2 a3 a4 a5 a6 a7 a8 := by
  funext e
  rw [Cert.ReferenceIdeal.Stages.score_eq, Cert.ReferenceIdeal.Stages.gatherSrc_eq, Cert.ReferenceIdeal.Stages.gatherDst_eq,
    Cert.ReferenceIdeal.Stages.layer2_eq, Cert.ReferenceIdeal.Stages.mean2_eq, Cert.ReferenceIdeal.Stages.layer1_eq]
  unfold Cert.KernelIdeal.Closed.scores Cert.KernelIdeal.Closed.layer2 Cert.KernelIdeal.Closed.layer1
  rw [flatten_at]
  simp only [meanAgg_eq, gatherRows_eq]
  rfl

end Cert.Bridge

end
-- ==== Proof.lean ====
/-
  Two GraphSAGE layers and a dot-product edge score: tiled kernels against whole-array operations.

  The kernel computes each layer's linear part, bias and relu in a kernel tiled over 5000-node blocks, and the
  per-edge dot product with its double sigmoid in a kernel tiled over 4000-edge blocks; the neighbour mean
  (a gather, two scatter-adds and a divide) and the gathers at the edges' end points are plain host operations, the
  same in the reference.  Read at the extended reals the roundings to bf16 in front of the matrix products are the
  identity, a block product into a zero accumulator is the sum over the contracted coordinate that the
  reference's `dot_general` is, the lane sum is the host's reduce, and the logistic function is
  `1 / (1 + exp (-x))` by definition; so the two programs compute one function of the nine arguments.  No law used
  needs the inputs finite.  The idealization rewrote nothing, so `preserves` is trivial.
-/
import proofs.«172390_j13804024889624_2_alg».proof.Defs
import proofs.«172390_j13804024889624_2_alg».proof.Proof.Gen.Kernel
import proofs.«172390_j13804024889624_2_alg».proof.Proof.Gen.Kernel.Frame
import proofs.«172390_j13804024889624_2_alg».proof.Proof.Gen.KernelIdeal
import proofs.«172390_j13804024889624_2_alg».proof.Proof.Gen.KernelIdeal.Frame
import proofs.«172390_j13804024889624_2_alg».proof.Proof.Gen.ReferenceIdeal
import proofs.«172390_j13804024889624_2_alg».proof.Proof.Gen.ReferenceIdeal.Run
import proofs.«172390_j13804024889624_2_alg».proof.Proof.Gen.ReferenceIdeal.Read
import proofs.«172390_j13804024889624_2_alg».proof.Proof.Gen.Pre_finite_inputs
import proofs.«172390_j13804024889624_2_alg».proof.Proof.KernelRun
import proofs.«172390_j13804024889624_2_alg».proof.Proof.KernelValue
import proofs.«172390_j13804024889624_2_alg».proof.Proof.Bridge

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the scores of all edges, one function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W7 m ρ c (Proc.devRef .tc Cert.KernelIdeal.main_v55), Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v79_eq, h0, h1, h2, h3, h4, h5, h6, h7, h8]
  exact ((Cert.KernelIdeal.Closed.W7_v55 m ρ c).trans (Cert.Bridge.result_eq _ _ _ _ _ _ _ _ _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
